-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x36x10000x3 : Shape := ⟨4, ![32, 36, 10000, 3]⟩
abbrev S10000 : Shape := ⟨1, ![10000]⟩
abbrev S_ : Shape := ⟨0, ![]⟩

class Facts : Prop where
  bcast_S_S32x36x10000x3 : S_.BroadcastsInDim S32x36x10000x3 (![] : Fin 0 → Fin S32x36x10000x3.rank)
  reducesTo_S32x36x10000x3_S_d0_1_2_3 : S32x36x10000x3.ReducesTo [0, 1, 2, 3] S_
  h_S_ : 0 < S_.numel

variable [Facts]

def fn {F : FTy → Type} [FloatOps F] (main_arg0 : FVec F S32x36x10000x3 .f32) (main_arg1 : IVec S10000 32) : IVec S_ 1 :=
  let main_v0 : FVec F S32x36x10000x3 .f32 := Host.absf main_arg0
  let main_cst : FVec F S_ .f32 := constant S_ .f32 0x7F800000#32
  let main_v1 : FVec F S32x36x10000x3 .f32 := broadcastInDim S32x36x10000x3 ![] bcast_S_S32x36x10000x3 main_cst
  let main_v2 : IVec S32x36x10000x3 1 := cmpf .olt main_v0 main_v1
  let main_c : IVec S_ 1 := constantI S_ 1 1#1
  let main_v3 : IVec S_ 1 := (fun x v => Host.reduce IntOp.andi x v reducesTo_S32x36x10000x3_S_d0_1_2_3 h_S_) main_v2 main_c
  main_v3
-- ==== Kernel.lean ====
abbrev S32x36x10000x3 : Shape := ⟨4, ![32, 36, 10000, 3]⟩
abbrev S10000 : Shape := ⟨1, ![10000]⟩
abbrev S32x36x30000 : Shape := ⟨3, ![32, 36, 30000]⟩
abbrev S32x1x30000 : Shape := ⟨3, ![32, 1, 30000]⟩
abbrev S4x36x30000 : Shape := ⟨3, ![4, 36, 30000]⟩
abbrev S4x1x30000 : Shape := ⟨3, ![4, 1, 30000]⟩
abbrev S4x30000 : Shape := ⟨2, ![4, 30000]⟩
abbrev S32x30000 : Shape := ⟨2, ![32, 30000]⟩
abbrev S32x10000x3 : Shape := ⟨3, ![32, 10000, 3]⟩
abbrev S32x10000x1 : Shape := ⟨3, ![32, 10000, 1]⟩
abbrev S32x10000 : Shape := ⟨2, ![32, 10000]⟩
abbrev S10000x1 : Shape := ⟨2, ![10000, 1]⟩
abbrev S20 : Shape := ⟨1, ![20]⟩
abbrev S1x20 : Shape := ⟨2, ![1, 20]⟩
abbrev S10000x20 : Shape := ⟨2, ![10000, 20]⟩
abbrev S32x1x10000 : Shape := ⟨3, ![32, 1, 10000]⟩
abbrev S32x10x10000 : Shape := ⟨3, ![32, 10, 10000]⟩
abbrev S_ : Shape := ⟨0, ![]⟩
abbrev S32x20 : Shape := ⟨2, ![32, 20]⟩
abbrev S32x1x20 : Shape := ⟨3, ![32, 1, 20]⟩
abbrev S32x10x20 : Shape := ⟨3, ![32, 10, 20]⟩

abbrev nBuf : Space → Nat
  | .hbm => 67
  | .vmem => 6
  | .smem => 0
  | _ => 0

abbrev bufTy : (tb : Table) → Fin (tcTables nBuf tb) → BufTy
  | .hbm, ⟨0, _⟩ => ⟨S32x36x10000x3, .f32⟩
  | .hbm, ⟨1, _⟩ => ⟨S10000, .i32⟩
  | .hbm, ⟨2, _⟩ => ⟨S32x36x30000, .f32⟩
  | .hbm, ⟨3, _⟩ => ⟨S32x1x30000, .f32⟩
  | .hbm, ⟨4, _⟩ => ⟨S32x1x30000, .f32⟩
  | .hbm, ⟨5, _⟩ => ⟨S32x30000, .f32⟩
  | .hbm, ⟨6, _⟩ => ⟨S32x30000, .f32⟩
  | .hbm, ⟨7, _⟩ => ⟨S32x10000x3, .f32⟩
  | .hbm, ⟨8, _⟩ => ⟨S32x10000x1, .f32⟩
  | .hbm, ⟨9, _⟩ => ⟨S32x10000, .f32⟩
  | .hbm, ⟨10, _⟩ => ⟨S32x10000x3, .f32⟩
  | .hbm, ⟨11, _⟩ => ⟨S32x10000x1, .f32⟩
  | .hbm, ⟨12, _⟩ => ⟨S32x10000, .f32⟩
  | .hbm, ⟨13, _⟩ => ⟨S32x10000, .f32⟩
  | .hbm, ⟨14, _⟩ => ⟨S10000x1, .i32⟩
  | .hbm, ⟨15, _⟩ => ⟨S20, .i32⟩
  | .hbm, ⟨16, _⟩ => ⟨S1x20, .i32⟩
  | .hbm, ⟨17, _⟩ => ⟨S10000x20, .i32⟩
  | .hbm, ⟨18, _⟩ => ⟨S10000x20, .i32⟩
  | .hbm, ⟨19, _⟩ => ⟨S10000x20, .i1⟩
  | .hbm, ⟨20, _⟩ => ⟨S10000x20, .f32⟩
  | .hbm, ⟨21, _⟩ => ⟨S32x1x10000, .f32⟩
  | .hbm, ⟨22, _⟩ => ⟨S32x10x10000, .f32⟩
  | .hbm, ⟨23, _⟩ => ⟨S32x10000, .i1⟩
  | .hbm, ⟨24, _⟩ => ⟨S32x10000, .i1⟩
  | .hbm, ⟨25, _⟩ => ⟨S_, .f32⟩
  | .hbm, ⟨26, _⟩ => ⟨S_, .f32⟩
  | .hbm, ⟨27, _⟩ => ⟨S32x10000, .f32⟩
  | .hbm, ⟨28, _⟩ => ⟨S32x10000, .f32⟩
  | .hbm, ⟨29, _⟩ => ⟨S32x20, .f32⟩
  | .hbm, ⟨30, _⟩ => ⟨S32x10000, .f32⟩
  | .hbm, ⟨31, _⟩ => ⟨S32x20, .f32⟩
  | .hbm, ⟨32, _⟩ => ⟨S32x20, .f32⟩
  | .hbm, ⟨33, _⟩ => ⟨S32x1x20, .f32⟩
  | .hbm, ⟨34, _⟩ => ⟨S32x10x20, .f32⟩
  | .hbm, ⟨35, _⟩ => ⟨S32x10000, .i1⟩
  | .hbm, ⟨36, _⟩ => ⟨S32x10000, .i1⟩
  | .hbm, ⟨37, _⟩ => ⟨S_, .f32⟩
  | .hbm, ⟨38, _⟩ => ⟨S_, .f32⟩
  | .hbm, ⟨39, _⟩ => ⟨S32x10000, .f32⟩
  | .hbm, ⟨40, _⟩ => ⟨S32x10000, .f32⟩
  | .hbm, ⟨41, _⟩ => ⟨S_, .f32⟩
  | .hbm, ⟨42, _⟩ => ⟨S_, .f32⟩
  | .hbm, ⟨43, _⟩ => ⟨S32x10000, .i32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S_, .f32⟩
  | .hbm, ⟨48, _⟩ => ⟨S32x20, .i1⟩
  | .hbm, ⟨49, _⟩ => ⟨S32x20, .i1⟩
  | .hbm, ⟨50, _⟩ => ⟨S_, .f32⟩
  | .hbm, ⟨51, _⟩ => ⟨S_, .f32⟩
  | .hbm, ⟨52, _⟩ => ⟨S32x20, .f32⟩
  | .hbm, ⟨53, _⟩ => ⟨S32x20, .f32⟩
  | .hbm, ⟨54, _⟩ => ⟨S_, .f32⟩
  | .hbm, ⟨55, _⟩ => ⟨S_, .f32⟩
  | .hbm, ⟨56, _⟩ => ⟨S32x20, .i32⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S_, .f32⟩
  | .hbm, ⟨61, _⟩ => ⟨S32x10x10000, .i1⟩
  | .hbm, ⟨62, _⟩ => ⟨S32x10x10000, .f32⟩
  | .hbm, ⟨63, _⟩ => ⟨S32x10x10000, .f32⟩
  | .hbm, ⟨64, _⟩ => ⟨S32x10x20, .i1⟩
  | .hbm, ⟨65, _⟩ => ⟨S32x10x20, .f32⟩
  | .hbm, ⟨66, _⟩ => ⟨S32x10x20, .f32⟩
  | .local _ .vmem, ⟨0, _⟩ => ⟨S4x36x30000, .f32⟩
  | .local _ .vmem, ⟨1, _⟩ => ⟨S4x36x30000, .f32⟩
  | .local _ .vmem, ⟨2, _⟩ => ⟨S4x1x30000, .f32⟩
  | .local _ .vmem, ⟨3, _⟩ => ⟨S4x1x30000, .f32⟩
  | .local _ .vmem, ⟨4, _⟩ => ⟨S4x1x30000, .f32⟩
  | .local _ .vmem, ⟨5, _⟩ => ⟨S4x1x30000, .f32⟩
  | _, _ => ⟨S32x36x10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_call2_v0 : Ref sig .tc := ⟨.hbm, 51, rfl⟩
abbrev main_call2_v1 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_c_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call3_v0 : Ref sig .tc := ⟨.hbm, 62, rfl⟩
abbrev main_v46 : Ref sig .tc := ⟨.hbm, 63, rfl⟩
abbrev main_v47 : Ref sig .tc := ⟨.hbm, 64, rfl⟩
abbrev main_call4_v0 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x36x30000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x30000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x30000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x36x10000x3_S32x36x30000 : S32x36x10000x3.ShapeCasts S32x36x30000
  inb_S4x36x30000_S4x36x30000_0_0_0 : ∀ a, (![0, 0, 0] : Fin 3 → Nat) a + S4x36x30000.size a ≤ S4x36x30000.size a
  h_S4x36x30000 : 0 < S4x36x30000.numel
  shapeCasts_S4x36x30000_S4x36x30000 : S4x36x30000.ShapeCasts S4x36x30000
  reduces_S4x36x30000_S4x30000 : S4x36x30000.Reduces [1] S4x30000
  natLt_1_32 : 1 < 32
  inb_S4x1x30000_S4x1x30000_0_0_0 : ∀ a, (![0, 0, 0] : Fin 3 → Nat) a + S4x1x30000.size a ≤ S4x1x30000.size a
  h_S4x1x30000 : 0 < S4x1x30000.numel
  shapeCasts_S4x1x30000_S4x30000 : S4x1x30000.ShapeCasts S4x30000
  shapeCasts_S4x30000_S4x1x30000 : S4x30000.ShapeCasts S4x1x30000
  shapeCasts_S32x1x30000_S32x30000 : S32x1x30000.ShapeCasts S32x30000
  shapeCasts_S32x30000_S32x10000x3 : S32x30000.ShapeCasts S32x10000x3
  slices_S32x10000x3_S32x10000x1_0_0_0 : S32x10000x3.Slices ![0, 0, 0] S32x10000x1
  shapeCasts_S32x10000x1_S32x10000 : S32x10000x1.ShapeCasts S32x10000
  bcast_S10000_S10000x1_0 : S10000.BroadcastsInDim S10000x1 (![0] : Fin 1 → Fin S10000x1.rank)
  bcast_S20_S1x20_1 : S20.BroadcastsInDim S1x20 (![1] : Fin 1 → Fin S1x20.rank)
  bcast_S10000x1_S10000x20_0_1 : S10000x1.BroadcastsInDim S10000x20 (![0, 1] : Fin 2 → Fin S10000x20.rank)
  bcast_S1x20_S10000x20_0_1 : S1x20.BroadcastsInDim S10000x20 (![0, 1] : Fin 2 → Fin S10000x20.rank)
  bcast_S32x10000_S32x1x10000_0_2 : S32x10000.BroadcastsInDim S32x1x10000 (![0, 2] : Fin 2 → Fin S32x1x10000.rank)
  bcast_S32x1x10000_S32x10x10000_0_1_2 : S32x1x10000.BroadcastsInDim S32x10x10000 (![0, 1, 2] : Fin 3 → Fin S32x10x10000.rank)
  bcast_S_S32x10000 : S_.BroadcastsInDim S32x10000 (![] : Fin 0 → Fin S32x10000.rank)
  bcast_S32x20_S32x1x20_0_2 : S32x20.BroadcastsInDim S32x1x20 (![0, 2] : Fin 2 → Fin S32x1x20.rank)
  bcast_S32x1x20_S32x10x20_0_1_2 : S32x1x20.BroadcastsInDim S32x10x20 (![0, 1, 2] : Fin 3 → Fin S32x10x20.rank)
  reducesTo_S32x10000_S_d0_1 : S32x10000.ReducesTo [0, 1] S_
  h_S_ : 0 < S_.numel
  bcast_S_S32x20 : S_.BroadcastsInDim S32x20 (![] : Fin 0 → Fin S32x20.rank)
  reducesTo_S32x20_S_d0_1 : S32x20.ReducesTo [0, 1] S_
  bcast_S_S32x10x10000 : S_.BroadcastsInDim S32x10x10000 (![] : Fin 0 → Fin S32x10x10000.rank)
  bcast_S_S32x10x20 : S_.BroadcastsInDim S32x10x20 (![] : Fin 0 → Fin S32x10x20.rank)
  dot_S32x10000_S10000x20_S32x20_1_0_0_1_n_n_wf : DotDims.WF S32x10000 S10000x20 S32x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x36x30000.size a ≤ S32x36x30000.size a
  hwx0_0 : ∀ i : grid0.Coords, EltTy.bits .f32 = 32 ∨ (Rect.block (s := S32x36x30000) S4x36x30000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x30000.size a ≤ S32x1x30000.size a
  hwx0_1 : ∀ i : grid0.Coords, EltTy.bits .f32 = 32 ∨ (Rect.block (s := S32x1x30000) S4x1x30000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x30000.size a ≤ S32x1x30000.size a
  hwx0_2 : ∀ i : grid0.Coords, EltTy.bits .f32 = 32 ∨ (Rect.block (s := S32x1x30000) S4x1x30000.size (cc0_transform_2 i) (hinb0_2 i)).WholeWords (EltTy.packing .f32)

variable [Facts₀]

def dot_S32x10000_S10000x20_S32x20_1_0_0_1_n_n : DotDims S32x10000 S10000x20 S32x20 where
  lhsContracting := [1]
  rhsContracting := [0]
  lhsNonContracting := [0]
  rhsNonContracting := [1]
  lhsBatch := []
  rhsBatch := []
  wf := dot_S32x10000_S10000x20_S32x20_1_0_0_1_n_n_wf

abbrev win0_0 : Pipeline.Window sig grid0 :=
  Pipeline.Window.ofSpec (Memref.whole main_v0) S4x36x30000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S4x1x30000.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S4x1x30000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x36x10000x3 : Shape := ⟨4, ![32, 36, 10000, 3]⟩
abbrev S10000 : Shape := ⟨1, ![10000]⟩
abbrev S32x36x10000x1 : Shape := ⟨4, ![32, 36, 10000, 1]⟩
abbrev S32x36x10000 : Shape := ⟨3, ![32, 36, 10000]⟩
abbrev S_ : Shape := ⟨0, ![]⟩
abbrev S32x10000 : Shape := ⟨2, ![32, 10000]⟩
abbrev S32x1x10000 : Shape := ⟨3, ![32, 1, 10000]⟩
abbrev S1x32x1x1x1x10000 : Shape := ⟨6, ![1, 32, 1, 1, 1, 10000]⟩
abbrev S1x32x10x1x1x10000 : Shape := ⟨6, ![1, 32, 10, 1, 1, 10000]⟩
abbrev S32x10x10000 : Shape := ⟨3, ![32, 10, 10000]⟩
abbrev S10000x1 : Shape := ⟨2, ![10000, 1]⟩
abbrev S20 : Shape := ⟨1, ![20]⟩
abbrev S1x20 : Shape := ⟨2, ![1, 20]⟩
abbrev S10000x20 : Shape := ⟨2, ![10000, 20]⟩
abbrev S32x10x20 : Shape := ⟨3, ![32, 10, 20]⟩

abbrev nBuf : Space → Nat
  | .hbm => 70
  | .vmem => 0
  | .smem => 0
  | _ => 0

abbrev bufTy : (tb : Table) → Fin (tcTables nBuf tb) → BufTy
  | .hbm, ⟨0, _⟩ => ⟨S32x36x10000x3, .f32⟩
  | .hbm, ⟨1, _⟩ => ⟨S10000, .i32⟩
  | .hbm, ⟨2, _⟩ => ⟨S32x36x10000x1, .f32⟩
  | .hbm, ⟨3, _⟩ => ⟨S32x36x10000, .f32⟩
  | .hbm, ⟨4, _⟩ => ⟨S32x36x10000, .i1⟩
  | .hbm, ⟨5, _⟩ => ⟨S32x36x10000, .i1⟩
  | .hbm, ⟨6, _⟩ => ⟨S_, .f32⟩
  | .hbm, ⟨7, _⟩ => ⟨S_, .f32⟩
  | .hbm, ⟨8, _⟩ => ⟨S32x36x10000, .f32⟩
  | .hbm, ⟨9, _⟩ => ⟨S32x36x10000, .f32⟩
  | .hbm, ⟨10, _⟩ => ⟨S32x36x10000, .i32⟩
  | .hbm, ⟨11, _⟩ => ⟨S_, .i32⟩
  | .hbm, ⟨12, _⟩ => ⟨S32x10000, .i32⟩
  | .hbm, ⟨13, _⟩ => ⟨S32x10000, .f32⟩
  | .hbm, ⟨14, _⟩ => ⟨S_, .f32⟩
  | .hbm, ⟨15, _⟩ => ⟨S32x10000, .f32⟩
  | .hbm, ⟨16, _⟩ => ⟨S32x10000, .f32⟩
  | .hbm, ⟨17, _⟩ => ⟨S32x1x10000, .f32⟩
  | .hbm, ⟨18, _⟩ => ⟨S1x32x1x1x1x10000, .f32⟩
  | .hbm, ⟨19, _⟩ => ⟨S1x32x10x1x1x10000, .f32⟩
  | .hbm, ⟨20, _⟩ => ⟨S32x10x10000, .f32⟩
  | .hbm, ⟨21, _⟩ => ⟨S10000x1, .i32⟩
  | .hbm, ⟨22, _⟩ => ⟨S20, .i32⟩
  | .hbm, ⟨23, _⟩ => ⟨S1x20, .i32⟩
  | .hbm, ⟨24, _⟩ => ⟨S10000x20, .i32⟩
  | .hbm, ⟨25, _⟩ => ⟨S10000x20, .i32⟩
  | .hbm, ⟨26, _⟩ => ⟨S10000x20, .i1⟩
  | .hbm, ⟨27, _⟩ => ⟨S10000x20, .f32⟩
  | .hbm, ⟨28, _⟩ => ⟨S32x10x10000, .i1⟩
  | .hbm, ⟨29, _⟩ => ⟨S32x10x10000, .i1⟩
  | .hbm, ⟨30, _⟩ => ⟨S_, .f32⟩
  | .hbm, ⟨31, _⟩ => ⟨S_, .f32⟩
  | .hbm, ⟨32, _⟩ => ⟨S32x10x10000, .f32⟩
  | .hbm, ⟨33, _⟩ => ⟨S32x10x10000, .f32⟩
  | .hbm, ⟨34, _⟩ => ⟨S32x10x20, .f32⟩
  | .hbm, ⟨35, _⟩ => ⟨S32x10x10000, .f32⟩
  | .hbm, ⟨36, _⟩ => ⟨S32x10x20, .f32⟩
  | .hbm, ⟨37, _⟩ => ⟨S32x10x20, .f32⟩
  | .hbm, ⟨38, _⟩ => ⟨S32x10x10000, .i1⟩
  | .hbm, ⟨39, _⟩ => ⟨S32x10x10000, .i1⟩
  | .hbm, ⟨40, _⟩ => ⟨S_, .f32⟩
  | .hbm, ⟨41, _⟩ => ⟨S_, .f32⟩
  | .hbm, ⟨42, _⟩ => ⟨S32x10x10000, .f32⟩
  | .hbm, ⟨43, _⟩ => ⟨S32x10x10000, .f32⟩
  | .hbm, ⟨44, _⟩ => ⟨S_, .f32⟩
  | .hbm, ⟨45, _⟩ => ⟨S_, .f32⟩
  | .hbm, ⟨46, _⟩ => ⟨S32x10x10000, .i32⟩
  | .hbm, ⟨47, _⟩ => ⟨S_, .i32⟩
  | .hbm, ⟨48, _⟩ => ⟨S_, .i32⟩
  | .hbm, ⟨49, _⟩ => ⟨S_, .f32⟩
  | .hbm, ⟨50, _⟩ => ⟨S_, .f32⟩
  | .hbm, ⟨51, _⟩ => ⟨S32x10x20, .i1⟩
  | .hbm, ⟨52, _⟩ => ⟨S32x10x20, .i1⟩
  | .hbm, ⟨53, _⟩ => ⟨S_, .f32⟩
  | .hbm, ⟨54, _⟩ => ⟨S_, .f32⟩
  | .hbm, ⟨55, _⟩ => ⟨S32x10x20, .f32⟩
  | .hbm, ⟨56, _⟩ => ⟨S32x10x20, .f32⟩
  | .hbm, ⟨57, _⟩ => ⟨S_, .f32⟩
  | .hbm, ⟨58, _⟩ => ⟨S_, .f32⟩
  | .hbm, ⟨59, _⟩ => ⟨S32x10x20, .i32⟩
  | .hbm, ⟨60, _⟩ => ⟨S_, .i32⟩
  | .hbm, ⟨61, _⟩ => ⟨S_, .i32⟩
  | .hbm, ⟨62, _⟩ => ⟨S_, .f32⟩
  | .hbm, ⟨63, _⟩ => ⟨S_, .f32⟩
  | .hbm, ⟨64, _⟩ => ⟨S32x10x10000, .i1⟩
  | .hbm, ⟨65, _⟩ => ⟨S32x10x10000, .f32⟩
  | .hbm, ⟨66, _⟩ => ⟨S32x10x10000, .f32⟩
  | .hbm, ⟨67, _⟩ => ⟨S32x10x20, .i1⟩
  | .hbm, ⟨68, _⟩ => ⟨S32x10x20, .f32⟩
  | .hbm, ⟨69, _⟩ => ⟨S32x10x20, .f32⟩
  | _, _ => ⟨S32x36x10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_call1_v0 : Ref sig .tc := ⟨.hbm, 31, rfl⟩
abbrev main_call1_v1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_call2_v0 : Ref sig .tc := ⟨.hbm, 41, rfl⟩
abbrev main_call2_v1 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_call3_v0 : Ref sig .tc := ⟨.hbm, 54, rfl⟩
abbrev main_call3_v1 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call4_v0 : Ref sig .tc := ⟨.hbm, 65, rfl⟩
abbrev main_v45 : Ref sig .tc := ⟨.hbm, 66, rfl⟩
abbrev main_v46 : Ref sig .tc := ⟨.hbm, 67, rfl⟩
abbrev main_call5_v0 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  slices_S32x36x10000x3_S32x36x10000x1_0_0_0_0 : S32x36x10000x3.Slices ![0, 0, 0, 0] S32x36x10000x1
  shapeCasts_S32x36x10000x1_S32x36x10000 : S32x36x10000x1.ShapeCasts S32x36x10000
  bcast_S_S32x36x10000 : S_.BroadcastsInDim S32x36x10000 (![] : Fin 0 → Fin S32x36x10000.rank)
  natLt_1_32 : 1 < 32
  reducesTo_S32x36x10000_S32x10000_d1 : S32x36x10000.ReducesTo [1] S32x10000
  h_S_ : 0 < S_.numel
  bcast_S32x10000_S32x1x10000_0_2 : S32x10000.BroadcastsInDim S32x1x10000 (![0, 2] : Fin 2 → Fin S32x1x10000.rank)
  shapeCasts_S32x1x10000_S1x32x1x1x1x10000 : S32x1x10000.ShapeCasts S1x32x1x1x1x10000
  bcast_S1x32x1x1x1x10000_S1x32x10x1x1x10000_0_1_2_3_4_5 : S1x32x1x1x1x10000.BroadcastsInDim S1x32x10x1x1x10000 (![0, 1, 2, 3, 4, 5] : Fin 6 → Fin S1x32x10x1x1x10000.rank)
  shapeCasts_S1x32x10x1x1x10000_S32x10x10000 : S1x32x10x1x1x10000.ShapeCasts S32x10x10000
  bcast_S10000_S10000x1_0 : S10000.BroadcastsInDim S10000x1 (![0] : Fin 1 → Fin S10000x1.rank)
  bcast_S20_S1x20_1 : S20.BroadcastsInDim S1x20 (![1] : Fin 1 → Fin S1x20.rank)
  bcast_S10000x1_S10000x20_0_1 : S10000x1.BroadcastsInDim S10000x20 (![0, 1] : Fin 2 → Fin S10000x20.rank)
  bcast_S1x20_S10000x20_0_1 : S1x20.BroadcastsInDim S10000x20 (![0, 1] : Fin 2 → Fin S10000x20.rank)
  bcast_S_S32x10x10000 : S_.BroadcastsInDim S32x10x10000 (![] : Fin 0 → Fin S32x10x10000.rank)
  reducesTo_S32x10x10000_S_d0_1_2 : S32x10x10000.ReducesTo [0, 1, 2] S_
  bcast_S_S32x10x20 : S_.BroadcastsInDim S32x10x20 (![] : Fin 0 → Fin S32x10x20.rank)
  reducesTo_S32x10x20_S_d0_1_2 : S32x10x20.ReducesTo [0, 1, 2] S_
  dot_S32x10x10000_S10000x20_S32x10x20_2_0_01_1_n_n_wf : DotDims.WF S32x10x10000 S10000x20 S32x10x20 [2] [0] [0, 1] [1] [] []

variable [Facts₀]

def dot_S32x10x10000_S10000x20_S32x10x20_2_0_01_1_n_n : DotDims S32x10x10000 S10000x20 S32x10x20 where
  lhsContracting := [2]
  rhsContracting := [0]
  lhsNonContracting := [0, 1]
  rhsNonContracting := [1]
  lhsBatch := []
  rhsBatch := []
  wf := dot_S32x10x10000_S10000x20_S32x10x20_2_0_01_1_n_n_wf

class Facts : Prop extends Facts₀ where

variable [Facts]
-- ==== Proof.LibSelfCompare.lean ====
/-
  An element compared with itself, on the extended reals.

  `jnp.isnan x` prints as "x differs from x" (the unordered-or-not-equal test in a host program, the
  ordered-and-not-equal test in a kernel body). On the extended reals there is no NaN and nothing differs from itself,
  so the test is the zero bit at every element, a validity mask `not (isnan x)` is all ones, a `where` on the mask keeps
  the values, a `where` on the test keeps the other branch, the mask read as a number is 1, and an integer count of
  the mask over a set of indices is the number of indices.
-/
import Idealize.ShloMosaic.Lib.ValueIdx
import Idealize.ShloMosaic.PureOps.Ideal.Laws

noncomputable section

open Idealize.ShloMosaic Idealize.ShloMosaic.ValueIdx

namespace Cert.Lib.SelfCompare

variable {s : Shape} {φ : FTy}

/-- "Unordered or not equal" of an extended real against itself is the zero bit. -/
theorem cmp_une_self (x : EReal) : Ideal.cmp .une x x = 0#1 := by simp [Ideal.cmp]

/-- "Ordered and not equal" of an extended real against itself is the zero bit. -/
theorem cmp_one_self (x : EReal) : Ideal.cmp .one x x = 0#1 := by simp [Ideal.cmp]

/-- `where(isnan a, b, a)` is `a`. -/
theorem select_une_self (a b : FVec Ideal s φ) : select (cmpf .une a a) b a = a := by
  funext i
  show Scalar.select (Ideal.cmp .une (a i) (a i)) (b i) (a i) = a i
  rw [cmp_une_self]; rfl

/-- `where(not isnan a, a, b)` is `a`. -/
theorem select_valid_self (a b : FVec Ideal s φ) : select (noti (cmpf .une a a)) a b = a := by
  funext i
  show Scalar.select (~~~(Ideal.cmp .une (a i) (a i))) (a i) (b i) = a i
  rw [cmp_une_self]; rfl

/-- The validity mask `not isnan a` converted to a float is 1 at every element. -/
theorem valid_float_apply {ψ : FTy} (a : FVec Ideal s φ) (i : s.Idx) :
    (uitofp ψ (noti (cmpf .une a a)) : FVec Ideal s ψ) i = 1 := by
  show ((((~~~(Ideal.cmp .une (a i) (a i))).toNat : ℝ)) : EReal) = 1
  rw [cmp_une_self]
  simp

/-- A fold of 32-bit word addition over a family of ones: the start plus the number of indices. -/
theorem fold_addi_ones {ι : Type} [DecidableEq ι] (t : Finset ι) (a : BitVec 32) :
    t.fold IntOp.addi a (fun _ => 1#32) = a + BitVec.ofNat 32 t.card := by
  induction t using Finset.induction_on with
  | empty => simp
  | insert x t hx ih =>
    rw [Finset.fold_insert hx, ih, Finset.card_insert_of_notMem hx, BitVec.ofNat_add]
    show 1#32 + (a + BitVec.ofNat 32 t.card) = a + (BitVec.ofNat 32 t.card + 1#32)
    rw [BitVec.add_comm, BitVec.add_assoc]

end Cert.Lib.SelfCompare

end
-- ==== Proof.BlockSums.lean ====
import proofs.«145007_j24790551233350_2_alg».proof.Proof.Gen.KernelIdeal.Skeleton
import Idealize.ShloMosaic.Lib.ValueIdx
import Idealize.ShloMosaic.Lib.Pipeline.Value
import Idealize.ShloMosaic.PureOps.Ideal.Laws
import proofs.«145007_j24790551233350_2_alg».proof.Proof.LibSelfCompare

/-
  One grid point's arithmetic, read at a coordinate.

  The body loads a block x of shape [4, 36, 30000] (four batches, 36 time steps, 30000 = 10000 nodes × 3 channels laid
  side by side), masks the entries that differ from themselves, and stores two rows per batch: the sum over the 36 time
  steps of the masked entries, and the sum over the 36 time steps of the mask read as 0/1. On the extended reals no
  entry differs from itself, so the mask is all ones: the first row is the plain column sum Σ_t x(p, t, j), and the
  second is the constant 36.
-/

noncomputable section

open Idealize.ShloMosaic Idealize.ShloMosaic.ValueIdx

namespace Cert.KernelIdeal.BlockSums

open Cert.KernelIdeal Cert.KernelIdeal.Gen Cert.Lib.SelfCompare

/-- The validity mask of a block is all ones. -/
theorem valid_apply (x0 : Vec Ideal S4x36x30000 .f32) (i : S4x36x30000.Idx) : k0_pay2 (F := Ideal) x0 i = 1#1 := by
  unfold k0_pay2
  show IntOp.xori (Ideal.cmp .one (k0_pay1 x0 i) (k0_pay1 x0 i)) 1#1 = 1#1
  rw [cmp_one_self]; rfl

/-- The reduced index (p, j) with the time coordinate t put back is (p, t, j). -/
theorem lift_eq (h : S4x36x30000.Reduces [1] S4x30000) (p : Fin 4) (j : Fin 30000) (t : Fin 36) :
    h.lift (ix2 p j) t = ix3 p t j := by
  funext a; apply Fin.ext
  match a with
  | ⟨0, _⟩ => rfl
  | ⟨1, _⟩ => rfl
  | ⟨2, _⟩ => rfl

/-- (p, j) of [4, 30000] and (p, 0, j) of [4, 1, 30000] sit at the same row-major position. -/
theorem pos_eq (p : Fin 4) (u : Fin 1) (j : Fin 30000) :
    (S4x30000.rowMajor (ix2 p j)).val = (S4x1x30000.rowMajor (ix3 p u j)).val := by
  rw [Shape.rowMajor_val_two, Shape.rowMajor_val_three]
  show p.val * 30000 + j.val = (p.val * 1 + u.val) * 30000 + j.val
  have := u.isLt
  omega

/-- The first stored value at (p, 0, j): the sum over the 36 time steps of the block's column (p, ·, j). -/
theorem sum_apply (x0 : Vec Ideal S4x36x30000 .f32) (p : Fin 4) (u : Fin 1) (j : Fin 30000) :
    k0_pay3 (F := Ideal) x0 (ix3 p u j) = ∑ t : Fin 36, x0 (ix3 p t j) := by
  unfold k0_pay3
  dsimp only
  refine (shapeCast_apply _ _ (ix3 p u j) (ix2 p j) (pos_eq p u j)).trans ?_
  refine (Ideal.multiReduction_add_single _ _ reduces_S4x36x30000_S4x30000 (.inl rfl) rfl (ix2 p j)).trans ?_
  show (∑ t : Fin 36, (select (k0_pay2 x0) (k0_pay1 x0) (broadcast S4x36x30000 (FloatOps.ofBits FTy.f32 0#32)) : FVec Ideal S4x36x30000 .f32)
      (reduces_S4x36x30000_S4x30000.lift (ix2 p j) t)) = _
  refine Finset.sum_congr rfl fun t _ => ?_
  rw [lift_eq]
  show Scalar.select (k0_pay2 x0 (ix3 p t j)) (k0_pay1 x0 (ix3 p t j)) _ = _
  rw [valid_apply]
  unfold k0_pay1
  rw [shapeCast_self]
  rfl

/-- The second stored value at (p, 0, j): the number of time steps, 36. -/
theorem count_apply (x0 : Vec Ideal S4x36x30000 .f32) (p : Fin 4) (u : Fin 1) (j : Fin 30000) :
    k0_pay4 (F := Ideal) x0 (ix3 p u j) = (36 : EReal) := by
  unfold k0_pay4
  dsimp only
  refine (shapeCast_apply _ _ (ix3 p u j) (ix2 p j) (pos_eq p u j)).trans ?_
  refine (Ideal.multiReduction_add_single _ _ reduces_S4x36x30000_S4x30000 (.inl rfl) rfl (ix2 p j)).trans ?_
  have h1 : ∀ t : Fin 36, (sitofp .f32 (extui 32 (k0_pay2 (F := Ideal) x0) natLt_1_32) : FVec Ideal S4x36x30000 .f32)
      (reduces_S4x36x30000_S4x30000.lift (ix2 p j) t) = ((1 : ℝ) : EReal) := by
    intro t
    show (((((k0_pay2 (F := Ideal) x0 _).setWidth 32).toInt : ℤ) : ℝ) : EReal) = _
    rw [valid_apply]
    norm_num
  show (∑ t : Fin 36, (sitofp .f32 (extui 32 (k0_pay2 (F := Ideal) x0) natLt_1_32) : FVec Ideal S4x36x30000 .f32)
      (reduces_S4x36x30000_S4x30000.lift (ix2 p j) t)) = _
  rw [Finset.sum_congr rfl fun t _ => h1 t]
  simp

/-- The first stored value at any index of the stored block. -/
theorem sum_at (x0 : Vec Ideal S4x36x30000 .f32) (y : S4x1x30000.Idx) :
    k0_pay3 (F := Ideal) x0 y = ∑ k : Fin 36, x0 (ix3 (n0 := 4) (n1 := 36) (n2 := 30000) (y 0) k (y 2)) := by
  obtain ⟨p, u, j, rfl⟩ : ∃ (p : Fin 4) (u : Fin 1) (j : Fin 30000), y = ix3 p u j := ⟨y 0, y 1, y 2, eq_ix3 y⟩
  exact sum_apply x0 p u j

/-- The second stored value at any index of the stored block. -/
theorem count_at (x0 : Vec Ideal S4x36x30000 .f32) (y : S4x1x30000.Idx) : k0_pay4 (F := Ideal) x0 y = (36 : EReal) := by
  obtain ⟨p, u, j, rfl⟩ : ∃ (p : Fin 4) (u : Fin 1) (j : Fin 30000), y = ix3 p u j := ⟨y 0, y 1, y 2, eq_ix3 y⟩
  exact count_apply x0 p u j

end Cert.KernelIdeal.BlockSums

end
-- ==== Proof.RegionArrays.lean ====
import proofs.«145007_j24790551233350_2_alg».proof.Proof.Gen.KernelIdeal.Frame
import proofs.«145007_j24790551233350_2_alg».proof.Proof.BlockSums
import Idealize.ShloMosaic.Lib.Pipeline.Value
import Idealize.ShloMosaic.Lib.ValueIdx
import Idealize.ShloMosaic.Lib.StableHlo.Run

/-
  The two arrays the region writes, as whole-array functions of the array it reads.

  The region reads X of shape [32, 36, 30000] in eight blocks of four batches and writes two arrays of shape
  [32, 1, 30000], block t of each from block t of X. Since a block's rows are batches 4t … 4t+3 and every block spans
  all time steps and all columns, the first array ends as the column sums S(b, 0, j) = Σ_t X(b, t, j) and the second
  as the constant 36; the eight blocks cover all 32 batches.
-/

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen

variable (m : (ℓ : Loc nD τ sig) → Buf (Elt Ideal) ℓ)

theorem hz : (![0, 0, 0] : Fin 3 → Nat) = fun _ => 0 := funext fun a => by fin_cases a <;> rfl

/-- The sums over the time axis of a [32, 36, 30000] array, laid out [32, 1, 30000]. -/
def timeSums (X : S32x36x30000.Idx → EReal) : S32x1x30000.Idx → EReal :=
  fun i => ∑ k : Fin 36, X (ix3 (n0 := 32) (n1 := 36) (n2 := 30000) (i 0) k (i 2))

/-- The number of time steps at every entry. -/
def timeCounts : S32x1x30000.Idx → EReal := fun _ => 36

/-- The block index maps, decided over the eight grid points: block t of every window is rows 4t … 4t+3, and all of
    the other axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The input block at point t, at (p, k, j), is X at (4t + p, k, j). -/
theorem iblk_apply (c : Dev nD) (t : Fin cfg0.N) (p : Fin 4) (k : Fin 36) (j : Fin 30000) (i : S32x36x30000.Idx)
    (h0 : (i 0).val = t.val * 4 + p.val) (h1 : (i 1).val = k.val) (h2 : (i 2).val = j.val) :
    (iblk m c 0 t : Vec Ideal S4x36x30000 .f32) (ix3 p k j) = (V m c main_v0 : S32x36x30000.Idx → EReal) i := by
  obtain ⟨e0, e1, e2, -⟩ := idx_facts t
  unfold iblk
  rw [View.read_apply]
  show V m c main_v0 _ = V m c main_v0 _
  refine congrArg (V m c main_v0) (funext fun a => Fin.ext ?_)
  match a with
  | ⟨0, _⟩ => show win0_0.index t 0 * 4 + 1 * p.val = (i 0).val; rw [e0, h0]; omega
  | ⟨1, _⟩ => show win0_0.index t 1 * 36 + 1 * k.val = (i 1).val; rw [e1, h1]; omega
  | ⟨2, _⟩ => show win0_0.index t 2 * 30000 + 1 * j.val = (i 2).val; rw [e2, h2]; omega

/-- WHAT POINT t WRITES BACK through the first output window is block t of the time sums of X. -/
theorem flushed1_eq (c : Dev nD) (t : Fin cfg0.N) :
    (dats m 0 c).flushed 1 t = ((cfg0.win 1).blk t).view.read (Elt Ideal) (timeSums (V m c main_v0)) := by
  show (cfg0.win 1).cut (grid0.coords t) ((dats m 0 c).after 1 t) = _
  rw [after0_1]
  unfold out0_1
  rw [View.canon_unit_zero hz]
  simp only [View.ld_unit_zero (S := S4x36x30000) hz]
  obtain ⟨-, -, -, e3, e4, e5, -⟩ := idx_facts t
  funext y
  show k0_pay3 (iblk m c 0 t) y = timeSums (V m c main_v0) (((cfg0.win 1).blk t).view.emb y)
  refine (BlockSums.sum_at (iblk m c 0 t) y).trans ?_
  unfold timeSums
  refine Finset.sum_congr rfl fun k _ => ?_
  refine iblk_apply m c t _ k _ _ ?_ rfl ?_
  · show win0_1.index t 0 * 4 + 1 * (y 0).val = t.val * 4 + (y 0).val
    rw [e3]; omega
  · show win0_1.index t 2 * 30000 + 1 * (y 2).val = (y 2).val
    rw [e5]; omega

/-- And through the second output window, block t of the constant 36. -/
theorem flushed2_eq (c : Dev nD) (t : Fin cfg0.N) :
    (dats m 0 c).flushed 2 t = ((cfg0.win 2).blk t).view.read (Elt Ideal) timeCounts := by
  show (cfg0.win 2).cut (grid0.coords t) ((dats m 0 c).after 2 t) = _
  rw [after0_2]
  unfold out0_2
  rw [View.canon_unit_zero hz]
  simp only [View.ld_unit_zero (S := S4x36x30000) hz]
  funext y
  show k0_pay4 (iblk m c 0 t) y = (36 : EReal)
  exact BlockSums.count_at (iblk m c 0 t) y

/-- An index of the first written array is in point t's block iff each coordinate is in the block's range. -/
theorem mem_blk1 (t : Fin cfg0.N) (i : S32x1x30000.Idx) :
    i ∈ ((cfg0.win 1).blk t).view.set ↔ ∀ a : Fin 3, win0_1.index t a * S4x1x30000.size a ≤ (i a).val ∧ (i a).val < win0_1.index t a * S4x1x30000.size a + S4x1x30000.size a := by
  show i ∈ ((View.whole main_v1_0).slice (win0_1.rect t)).set ↔ _
  rw [View.set_slice_whole, Rect.mem_set_unit]
  exact Iff.rfl

theorem mem_blk2 (t : Fin cfg0.N) (i : S32x1x30000.Idx) :
    i ∈ ((cfg0.win 2).blk t).view.set ↔ ∀ a : Fin 3, win0_2.index t a * S4x1x30000.size a ≤ (i a).val ∧ (i a).val < win0_2.index t a * S4x1x30000.size a + S4x1x30000.size a := by
  show i ∈ ((View.whole main_v1_1).slice (win0_2.rect t)).set ↔ _
  rw [View.set_slice_whole, Rect.mem_set_unit]
  exact Iff.rfl

/-- Batch b lies in the block of point b / 4. -/
def pointOf (i : S32x1x30000.Idx) : Fin cfg0.N :=
  ⟨(i 0).val / 4, by have h0 : (i 0).val < 32 := (i 0).isLt; rw [show cfg0.N = 8 from N_0]; omega⟩

/-- The eight blocks cover the first written array, -/
theorem cover1 (i : S32x1x30000.Idx) : ∃ t : Fin cfg0.N, (cfg0.win 1).flush t = true ∧ i ∈ ((cfg0.win 1).blk t).view.set := by
  have h0 : (i 0).val < 32 := (i 0).isLt
  have h1 : (i 1).val < 1 := (i 1).isLt
  have h2 : (i 2).val < 30000 := (i 2).isLt
  obtain ⟨-, -, -, e3, e4, e5, -⟩ := idx_facts (pointOf i)
  have ht : (pointOf i).val = (i 0).val / 4 := rfl
  refine ⟨pointOf i, flush0_1 _, ?_⟩
  rw [mem_blk1]
  intro a
  match a with
  | ⟨0, _⟩ => show win0_1.index (pointOf i) 0 * 4 ≤ (i 0).val ∧ (i 0).val < win0_1.index (pointOf i) 0 * 4 + 4; rw [e3, ht]; omega
  | ⟨1, _⟩ => show win0_1.index (pointOf i) 1 * 1 ≤ (i 1).val ∧ (i 1).val < win0_1.index (pointOf i) 1 * 1 + 1; rw [e4]; omega
  | ⟨2, _⟩ => show win0_1.index (pointOf i) 2 * 30000 ≤ (i 2).val ∧ (i 2).val < win0_1.index (pointOf i) 2 * 30000 + 30000; rw [e5]; omega

/-- and the second. -/
theorem cover2 (i : S32x1x30000.Idx) : ∃ t : Fin cfg0.N, (cfg0.win 2).flush t = true ∧ i ∈ ((cfg0.win 2).blk t).view.set := by
  have h0 : (i 0).val < 32 := (i 0).isLt
  have h1 : (i 1).val < 1 := (i 1).isLt
  have h2 : (i 2).val < 30000 := (i 2).isLt
  obtain ⟨-, -, -, -, -, -, e6, e7, e8⟩ := idx_facts (pointOf i)
  have ht : (pointOf i).val = (i 0).val / 4 := rfl
  refine ⟨pointOf i, flush0_2 _, ?_⟩
  rw [mem_blk2]
  intro a
  match a with
  | ⟨0, _⟩ => show win0_2.index (pointOf i) 0 * 4 ≤ (i 0).val ∧ (i 0).val < win0_2.index (pointOf i) 0 * 4 + 4; rw [e6, ht]; omega
  | ⟨1, _⟩ => show win0_2.index (pointOf i) 1 * 1 ≤ (i 1).val ∧ (i 1).val < win0_2.index (pointOf i) 1 * 1 + 1; rw [e7]; omega
  | ⟨2, _⟩ => show win0_2.index (pointOf i) 2 * 30000 ≤ (i 2).val ∧ (i 2).val < win0_2.index (pointOf i) 2 * 30000 + 30000; rw [e8]; omega

/-- THE FIRST WRITTEN ARRAY after the region: the time sums of X. -/
theorem final1 (c : Dev nD) : (dats m 0 c).arrAt 1 cfg0.N = timeSums (V m c main_v0) :=
  (dats m 0 c).arrAt_eq_of_cover 1 (timeSums (V m c main_v0)) (fun t _ => flushed1_eq m c t) cover1

/-- THE SECOND: the constant 36. -/
theorem final2 (c : Dev nD) : (dats m 0 c).arrAt 2 cfg0.N = timeCounts :=
  (dats m 0 c).arrAt_eq_of_cover 2 timeCounts (fun t _ => flushed2_eq m c t) cover2

/-- X itself: the first argument with its node and channel axes merged, as the one host operation before the region
    leaves it. -/
theorem head_eq (c : Dev nD) :
    (V m c main_v0 : S32x36x30000.Idx → EReal)
      = shapeCast _ (m ((c : Thread nD τ).loc main_arg0)) shapeCasts_S32x36x10000x3_S32x36x30000 := by
  show StableHlo.after hostOps0 (fun b => m (c, b)) (Proc.devRef .tc main_v0) = _
  after_results
  rfl

end Cert.KernelIdeal.Arrays

end
-- ==== Proof.HostTail.lean ====
import proofs.«145007_j24790551233350_2_alg».proof.Proof.Gen.KernelIdeal.Launch
import Idealize.ShloMosaic.Lib.StableHlo.Run
import Idealize.ShloMosaic.Lib.ValueIdx
import Idealize.ShloMosaic.Lib.Pipeline.Value
import Idealize.ShloMosaic.PureOps.Ideal.Laws
import proofs.«145007_j24790551233350_2_alg».proof.Proof.LibSelfCompare

/-
  The host operations after the region, as one function of what the region wrote.

  After the region the program keeps channel 0 of the two written arrays, divides them into the time mean, repeats it
  ten times along a new axis for the first result, and contracts it (masked by "is not NaN") against the one-hot
  matrix of the region numbers for the regional mean, repeated ten times for the second result. Each result is then
  passed through a select that replaces the entries differing from themselves by a global mean; on the extended reals
  no entry differs from itself, so each select returns its last operand and the global means do not enter the results.
-/

noncomputable section

open Idealize.ShloMosaic Idealize.ShloMosaic.TcCoe Idealize.SL.Sem Idealize.ShloMosaic.StableHlo Idealize.ShloMosaic.ValueIdx

namespace Cert.KernelIdeal.Tail

open Cert.KernelIdeal Cert.KernelIdeal.Gen Cert.Lib.SelfCompare

/-- Channel 0 of a per-(node, channel) row array [32, 1, 30000], as a [32, 10000] matrix: entry (b, n) is entry (b, 0, 3n). -/
def chan0 (a : FVec Ideal S32x1x30000 .f32) : FVec Ideal S32x10000 .f32 :=
  shapeCast _ (extractStridedSlice S32x10000x1 ![0, 0, 0]
    (shapeCast _ (shapeCast _ a shapeCasts_S32x1x30000_S32x30000) shapeCasts_S32x30000_S32x10000x3)
    slices_S32x10000x3_S32x10000x1_0_0_0) shapeCasts_S32x10000x1_S32x10000

/-- The time mean: the channel-0 sums over the channel-0 counts. -/
def tmean (s n : FVec Ideal S32x1x30000 .f32) : FVec Ideal S32x10000 .f32 :=
  Host.divf (F := Ideal) (chan0 s) (chan0 n)

/-- A [32, 10000] matrix repeated along a new middle axis of extent 10. -/
def tile10 (x : FVec Ideal S32x10000 .f32) : FVec Ideal S32x10x10000 .f32 :=
  broadcastInDim S32x10x10000 ![0, 1, 2] bcast_S32x1x10000_S32x10x10000_0_1_2
    (broadcastInDim S32x1x10000 ![0, 2] bcast_S32x10000_S32x1x10000_0_2 x)

/-- The one-hot matrix of the region numbers: entry (n, r) is 1 where node n's number is r. -/
def onehot (cid : IVec S10000 32) : FVec Ideal S10000x20 .f32 :=
  uitofp .f32 (cmpi .eq
    (broadcastInDim S10000x20 ![0, 1] bcast_S10000x1_S10000x20_0_1 (broadcastInDim S10000x1 ![0] bcast_S10000_S10000x1_0 cid))
    (broadcastInDim S10000x20 ![0, 1] bcast_S1x20_S10000x20_0_1 (broadcastInDim S1x20 ![1] bcast_S20_S1x20_1 (iotaInDim S20 32 0))))

/-- The regional mean: the masked values contracted with the one-hot matrix over the mask contracted with it. -/
def regional (x : FVec Ideal S32x10000 .f32) (oh : FVec Ideal S10000x20 .f32) : FVec Ideal S32x20 .f32 :=
  Host.divf (F := Ideal)
    (Host.dotGeneral dot_S32x10000_S10000x20_S32x20_1_0_0_1_n_n (some .fp32)
      (select (noti (cmpf .une x x)) x (broadcastInDim S32x10000 ![] bcast_S_S32x10000 (id (constant (F := Ideal) S_ .f32 0x00000000#32)))) oh)
    (Host.dotGeneral dot_S32x10000_S10000x20_S32x20_1_0_0_1_n_n (some .fp32) (uitofp .f32 (noti (cmpf .une x x))) oh)

/-- A [32, 20] matrix repeated along a new middle axis of extent 10. -/
def tile10r (x : FVec Ideal S32x20 .f32) : FVec Ideal S32x10x20 .f32 :=
  broadcastInDim S32x10x20 ![0, 1, 2] bcast_S32x1x20_S32x10x20_0_1_2
    (broadcastInDim S32x1x20 ![0, 2] bcast_S32x20_S32x1x20_0_2 x)

/-- The ten stretches of host operations after the region, in order. -/
abbrev tailOps : List (List (HloOp τ sig (Elt Ideal))) :=
  [hostOps1, hostOps1_1, hostOps1_2, hostOps1_3, hostOps1_4, hostOps1_5, hostOps1_6, hostOps1_7, hostOps1_8, hostOps1_9]

set_option maxRecDepth 8192 in
set_option maxHeartbeats 4000000 in
/-- The first result after the host tail, from ANY contents W of the buffers when the tail starts: the time mean of
    the two written arrays, repeated ten times. -/
theorem tail_pred (W : Valuation τ sig (Elt Ideal)) :
    StableHlo.after (List.flatten tailOps) W (Proc.devRef .tc main_v46)
      = tile10 (tmean (W (Proc.devRef .tc main_v1_0)) (W (Proc.devRef .tc main_v1_1))) := by
  simp only [tailOps, hostOps1, hostOps1_1, hostOps1_2, hostOps1_3, hostOps1_4, hostOps1_5, hostOps1_6, hostOps1_7, hostOps1_8, hostOps1_9,
    List.flatten_cons, List.flatten_nil, List.append_nil, List.cons_append, List.nil_append]
  after_results_simp
  simp only [cast_eq]
  exact (select_une_self _ _).trans rfl

set_option maxRecDepth 8192 in
set_option maxHeartbeats 4000000 in
/-- The second result likewise: the regional mean of that time mean under the region numbers' one-hot matrix. -/
theorem tail_reg (W : Valuation τ sig (Elt Ideal)) :
    StableHlo.after (List.flatten tailOps) W (Proc.devRef .tc main_v48)
      = tile10r (regional (tmean (W (Proc.devRef .tc main_v1_0)) (W (Proc.devRef .tc main_v1_1))) (onehot (W (Proc.devRef .tc main_arg1)))) := by
  simp only [tailOps, hostOps1, hostOps1_1, hostOps1_2, hostOps1_3, hostOps1_4, hostOps1_5, hostOps1_6, hostOps1_7, hostOps1_8, hostOps1_9,
    List.flatten_cons, List.flatten_nil, List.append_nil, List.cons_append, List.nil_append]
  after_results_simp
  simp only [cast_eq]
  exact (select_une_self _ _).trans rfl

end Cert.KernelIdeal.Tail

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibHostPlainDot.lean ====
/-
  The host's plain matrix product read at coordinates.

  For the plain contraction `[M, K] × [K, N] → [M, N]` (the left operand contracted on its second axis, the right on
  its first, no batch axis) the host's `dot_general` at entry `(r, c)` is `Σ_k lhs (r, k) · rhs (k, c)` on the extended
  reals, at any extents and any contraction precision: the same sum a kernel's matrix product into a zero
  accumulator is.
-/
import Idealize.ShloMosaic.Lib.ValueIdx
import Idealize.ShloMosaic.Lib.Pipeline.Value
import Idealize.ShloMosaic.PureOps.Ideal.Laws
import proofs.«145007_j24790551233350_2_alg».proof.Proof.LibPlainMatmul

namespace Cert.Lib.HostPlainDot

open Idealize.ShloMosaic Idealize.ShloMosaic.ValueIdx Cert.PlainMatmul

variable {M K N : ℕ}

/-- The host's plain product at `(r, c)`: the sum over `k` of `lhs (r, k) · rhs (k, c)`. -/
theorem hostDot_apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c) = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

variable {α : Type}

/-- A block of columns sliced out of an `[a, b]` array at column offset `off`: entry `(p, q)` is entry `(p, off + q)`. -/
theorem slice_cols_apply {a b b' : ℕ} (off : ℕ) (x : (⟨2, ![a, b]⟩ : Shape).Idx → α)
    (h : (⟨2, ![a, b]⟩ : Shape).Slices ![0, off] ⟨2, ![a, b']⟩) (p : Fin a) (q : Fin b') (hq : off + q.val < b) :
    extractStridedSlice ⟨2, ![a, b']⟩ ![0, off] x h (ix2 p q) = x (ix2 p (⟨off + q.val, hq⟩ : Fin b)) :=
  extractStridedSlice_apply ![0, off] x h (ix2 p q) (ix2 p (⟨off + q.val, hq⟩ : Fin b)) (fun ax => match ax with
    | ⟨0, _⟩ => by show p.val = 0 + p.val; omega
    | ⟨1, _⟩ => by show off + q.val = off + q.val; rfl)

/-- A block of rows sliced out of an `[a, b]` array at row offset `off`: entry `(p, q)` is entry `(off + p, q)`. -/
theorem slice_rows_apply {a a' b : ℕ} (off : ℕ) (x : (⟨2, ![a, b]⟩ : Shape).Idx → α)
    (h : (⟨2, ![a, b]⟩ : Shape).Slices ![off, 0] ⟨2, ![a', b]⟩) (p : Fin a') (q : Fin b) (hp : off + p.val < a) :
    extractStridedSlice ⟨2, ![a', b]⟩ ![off, 0] x h (ix2 p q) = x (ix2 (⟨off + p.val, hp⟩ : Fin a) q) :=
  extractStridedSlice_apply ![off, 0] x h (ix2 p q) (ix2 (⟨off + p.val, hp⟩ : Fin a) q) (fun ax => match ax with
    | ⟨0, _⟩ => by show off + p.val = off + p.val; rfl
    | ⟨1, _⟩ => by show q.val = 0 + q.val; omega)

end Cert.Lib.HostPlainDot
-- ==== Proof.HostTailReads.lean ====
import proofs.«145007_j24790551233350_2_alg».proof.Proof.HostTail
import proofs.«145007_j24790551233350_2_alg».proof.Proof.LibHostPlainDot

/-
  The host tail's pieces read at coordinates: channel 0 of a written array, the time mean, the two repetitions along a
  new axis, and the regional mean as a quotient of two sums over the nodes.
-/

noncomputable section

open Idealize.ShloMosaic Idealize.ShloMosaic.TcCoe Idealize.SL.Sem Idealize.ShloMosaic.StableHlo Idealize.ShloMosaic.ValueIdx

namespace Cert.KernelIdeal.Tail

open Cert.KernelIdeal Cert.KernelIdeal.Gen Cert.Lib.SelfCompare

/-- Channel 0 at (b, n) is entry (b, 0, 3n): the node's three channels sit side by side, channel 0 first. -/
theorem chan0_apply (a : FVec Ideal S32x1x30000 .f32) (b : Fin 32) (n : Fin 10000) :
    chan0 a (ix2 b n) = a (ix3 b (0 : Fin 1) (⟨3 * n.val, by have := n.isLt; omega⟩ : Fin 30000)) := by
  have hn := n.isLt
  unfold chan0
  refine (shapeCast_apply _ _ (ix2 b n) (ix3 b n (0 : Fin 1)) ?_).trans ?_
  · rw [Shape.rowMajor_val_three, Shape.rowMajor_val_two]
    show (b.val * 10000 + n.val) * 1 + 0 = b.val * 10000 + n.val
    omega
  refine (extractStridedSlice_apply _ _ _ (ix3 b n (0 : Fin 1)) (ix3 b n (0 : Fin 3)) (fun ax => ?_)).trans ?_
  · match ax with
    | ⟨0, _⟩ => show b.val = 0 + b.val; omega
    | ⟨1, _⟩ => show n.val = 0 + n.val; omega
    | ⟨2, _⟩ => show 0 = 0 + 0; rfl
  refine (shapeCast_apply _ _ (ix3 b n (0 : Fin 3)) (ix2 b (⟨3 * n.val, by omega⟩ : Fin 30000)) ?_).trans ?_
  · rw [Shape.rowMajor_val_two, Shape.rowMajor_val_three]
    show b.val * 30000 + 3 * n.val = (b.val * 10000 + n.val) * 3 + 0
    omega
  refine shapeCast_apply _ _ (ix2 b (⟨3 * n.val, by omega⟩ : Fin 30000)) (ix3 b (0 : Fin 1) (⟨3 * n.val, by omega⟩ : Fin 30000)) ?_
  rw [Shape.rowMajor_val_three, Shape.rowMajor_val_two]
  show (b.val * 1 + 0) * 30000 + 3 * n.val = b.val * 30000 + 3 * n.val
  omega

/-- The time mean at (b, n): the quotient of the two channel-0 entries. -/
theorem tmean_apply (s n : FVec Ideal S32x1x30000 .f32) (b : Fin 32) (v : Fin 10000) :
    tmean s n (ix2 b v) = Ideal.div (chan0 s (ix2 b v)) (chan0 n (ix2 b v)) := rfl

/-- The repeated matrix at (b, h, n) is the matrix at (b, n). -/
theorem tile10_apply (x : FVec Ideal S32x10000 .f32) (b : Fin 32) (h : Fin 10) (n : Fin 10000) :
    tile10 x (ix3 b h n) = x (ix2 b n) := by
  unfold tile10
  refine (broadcastInDim_apply _ _ _ (ix3 b h n) (ix3 b (0 : Fin 1) n) (fun a => ?_)).trans ?_
  · match a with
    | ⟨0, _⟩ => show b.val = if (32 : Nat) = 1 then 0 else b.val; rw [if_neg (by decide)]
    | ⟨1, _⟩ => show 0 = if (1 : Nat) = 1 then 0 else h.val; rw [if_pos rfl]
    | ⟨2, _⟩ => show n.val = if (10000 : Nat) = 1 then 0 else n.val; rw [if_neg (by decide)]
  refine broadcastInDim_apply _ _ _ (ix3 b (0 : Fin 1) n) (ix2 b n) (fun a => ?_)
  match a with
  | ⟨0, _⟩ => show b.val = if (32 : Nat) = 1 then 0 else b.val; rw [if_neg (by decide)]
  | ⟨1, _⟩ => show n.val = if (10000 : Nat) = 1 then 0 else n.val; rw [if_neg (by decide)]

/-- Likewise for a [32, 20] matrix. -/
theorem tile10r_apply (x : FVec Ideal S32x20 .f32) (b : Fin 32) (h : Fin 10) (r : Fin 20) :
    tile10r x (ix3 b h r) = x (ix2 b r) := by
  unfold tile10r
  refine (broadcastInDim_apply _ _ _ (ix3 b h r) (ix3 b (0 : Fin 1) r) (fun a => ?_)).trans ?_
  · match a with
    | ⟨0, _⟩ => show b.val = if (32 : Nat) = 1 then 0 else b.val; rw [if_neg (by decide)]
    | ⟨1, _⟩ => show 0 = if (1 : Nat) = 1 then 0 else h.val; rw [if_pos rfl]
    | ⟨2, _⟩ => show r.val = if (20 : Nat) = 1 then 0 else r.val; rw [if_neg (by decide)]
  refine broadcastInDim_apply _ _ _ (ix3 b (0 : Fin 1) r) (ix2 b r) (fun a => ?_)
  match a with
  | ⟨0, _⟩ => show b.val = if (32 : Nat) = 1 then 0 else b.val; rw [if_neg (by decide)]
  | ⟨1, _⟩ => show r.val = if (20 : Nat) = 1 then 0 else r.val; rw [if_neg (by decide)]

/-- The regional mean at (b, r): no entry differs from itself, so the masked values are the values and the mask is
    all ones; the numerator sums the values of region r's nodes and the denominator counts them. -/
theorem regional_apply (x : FVec Ideal S32x10000 .f32) (oh : FVec Ideal S10000x20 .f32) (b : Fin 32) (r : Fin 20) :
    regional x oh (ix2 b r)
      = Ideal.div (∑ k : Fin 10000, x (ix2 b k) * oh (ix2 k r)) (∑ k : Fin 10000, oh (ix2 k r)) := by
  unfold regional
  show Ideal.div (Host.dotGeneral (F := Ideal) (DotDims.plain 32 10000 20) (some .fp32) _ oh (ix2 b r))
      (Host.dotGeneral (F := Ideal) (DotDims.plain 32 10000 20) (some .fp32) _ oh (ix2 b r)) = _
  rw [Cert.Lib.HostPlainDot.hostDot_apply, Cert.Lib.HostPlainDot.hostDot_apply]
  refine congrArg₂ Ideal.div (Finset.sum_congr rfl fun k _ => ?_) (Finset.sum_congr rfl fun k _ => ?_)
  · show Scalar.select (~~~(Ideal.cmp .une (x (ix2 b k)) (x (ix2 b k)))) (x (ix2 b k)) _ * _ = _
    rw [cmp_une_self]; rfl
  · show ((((~~~(Ideal.cmp .une (x (ix2 b k)) (x (ix2 b k)))).toNat : ℝ)) : EReal) * _ = _
    rw [cmp_une_self]
    simp

end Cert.KernelIdeal.Tail

end
-- ==== Proof.NodeMeans.lean ====
import Idealize.ShloMosaic.Lib.ValueIdx
import Idealize.ShloMosaic.PureOps.Ideal.Laws

/-
  What both programs compute, on the extended reals.

  A is the reading array of shape [32, 36, 10000, 3]: batch, time step, node, channel. The time mean of node n in
  batch b is the sum over the 36 time steps of channel 0, divided by 36. The first result repeats it along a new axis
  of extent 10. The second result is, per batch and region r, the sum of the time means of the region's nodes divided
  by the number of its nodes, both sums taken against a 0/1 membership matrix `oh` over (node, region), and repeated
  along the same new axis.
-/

noncomputable section

open Idealize.ShloMosaic Idealize.ShloMosaic.ValueIdx

namespace Cert.NodeMeans

/-- The time mean of channel 0 at batch b, node n. -/
def mean (A : (⟨4, ![32, 36, 10000, 3]⟩ : Shape).Idx → EReal) (b : Fin 32) (n : Fin 10000) : EReal :=
  Ideal.div (∑ k : Fin 36, A (ix4 b k n (0 : Fin 3))) 36

/-- The first result: the time mean at every one of the ten horizon steps. -/
def pred (A : (⟨4, ![32, 36, 10000, 3]⟩ : Shape).Idx → EReal) : (⟨3, ![32, 10, 10000]⟩ : Shape).Idx → EReal :=
  fun i => mean A (i 0) (i 2)

/-- The second result: the mean over a region's nodes of their time means, at every horizon step. -/
def regional (A : (⟨4, ![32, 36, 10000, 3]⟩ : Shape).Idx → EReal) (oh : (⟨2, ![10000, 20]⟩ : Shape).Idx → EReal) :
    (⟨3, ![32, 10, 20]⟩ : Shape).Idx → EReal :=
  fun i => Ideal.div (∑ n : Fin 10000, mean A (i 0) n * oh (ix2 n (i 2))) (∑ n : Fin 10000, oh (ix2 n (i 2)))

end Cert.NodeMeans

end
-- ==== Proof.KernelResult.lean ====
import proofs.«145007_j24790551233350_2_alg».proof.Proof.RegionArrays
import proofs.«145007_j24790551233350_2_alg».proof.Proof.HostTailReads
import proofs.«145007_j24790551233350_2_alg».proof.Proof.NodeMeans

/-
  The idealized kernel's run, read: its two results are the specification's functions of its arguments.

  The region leaves the time sums of the merged readings X and the constant 36; the host tail keeps channel 0 of both,
  divides, repeats, and forms the regional quotient. At (b, n) channel 0 of the time sums of X is the sum over time of
  the readings' channel 0, because entry (b, k, 3n) of X is reading (b, k, n, 0).
-/

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Arrays Cert.KernelIdeal.Tail

/-- Channel 0's column of the merged readings, summed over time, is the readings' channel 0 summed over time. -/
theorem timeSums_merged (A : S32x36x10000x3.Idx → EReal) (b : Fin 32) (n : Fin 10000) :
    timeSums (shapeCast _ A shapeCasts_S32x36x10000x3_S32x36x30000)
        (ix3 b (0 : Fin 1) (⟨3 * n.val, by have := n.isLt; omega⟩ : Fin 30000))
      = ∑ k : Fin 36, A (ix4 b k n (0 : Fin 3)) := by
  have hn := n.isLt
  unfold timeSums
  refine Finset.sum_congr rfl fun k _ => ?_
  refine shapeCast_apply _ _ _ (ix4 b k n (0 : Fin 3)) ?_
  rw [Shape.rowMajor_val_four, Shape.rowMajor_val_three]
  show ((b.val * 36 + k.val) * 10000 + n.val) * 3 + 0 = (b.val * 36 + k.val) * 30000 + 3 * n.val
  omega

/-- The host tail's time mean at (b, n) is the specification's. -/
theorem tmean_eq (A : S32x36x10000x3.Idx → EReal) (b : Fin 32) (n : Fin 10000) :
    tmean (timeSums (shapeCast _ A shapeCasts_S32x36x10000x3_S32x36x30000)) timeCounts (ix2 b n) = NodeMeans.mean A b n := by
  rw [tmean_apply, chan0_apply, chan0_apply, timeSums_merged]
  rfl

/-- The first result is the specification's. -/
theorem pred_eq (A : S32x36x10000x3.Idx → EReal) :
    tile10 (tmean (timeSums (shapeCast _ A shapeCasts_S32x36x10000x3_S32x36x30000)) timeCounts) = NodeMeans.pred A := by
  funext i
  obtain ⟨b, h, n, rfl⟩ : ∃ (b : Fin 32) (h : Fin 10) (n : Fin 10000), i = ix3 b h n := ⟨i 0, i 1, i 2, eq_ix3 i⟩
  rw [tile10_apply, tmean_eq]
  rfl

/-- The second result is the specification's, for any membership matrix. -/
theorem regional_eq (A : S32x36x10000x3.Idx → EReal) (oh : FVec Ideal S10000x20 .f32) :
    tile10r (Tail.regional (tmean (timeSums (shapeCast _ A shapeCasts_S32x36x10000x3_S32x36x30000)) timeCounts) oh)
      = NodeMeans.regional A oh := by
  funext i
  obtain ⟨b, h, r, rfl⟩ : ∃ (b : Fin 32) (h : Fin 10) (r : Fin 20), i = ix3 b h r := ⟨i 0, i 1, i 2, eq_ix3 i⟩
  rw [tile10r_apply, regional_apply]
  show _ = Ideal.div (∑ n : Fin 10000, NodeMeans.mean A b n * oh (ix2 n r)) (∑ n : Fin 10000, oh (ix2 n r))
  refine congrArg₂ Ideal.div (Finset.sum_congr rfl fun k _ => ?_) rfl
  rw [tmean_eq]

variable (m : (ℓ : Loc nD τ sig) → Buf (Elt Ideal) ℓ) (ρ : Dev nD → PrngReg)

/-- What the host tail finds in the first written array: the region's final contents, the time sums of X. -/
theorem arr1 (c : Dev nD) :
    Pipeline.withArrays (cfgs 0).spec c (V0 m c) (fun w => (dats m 0 c).arrAt w (cfgs 0).N) (Proc.devRef .tc main_v1_0)
      = timeSums (shapeCast _ (m ((c.tc : Thread nD τ).loc main_arg0)) shapeCasts_S32x36x10000x3_S32x36x30000) :=
  ((Pipeline.withArrays_arr spec0 launch0.win.arr_inj c _ _ 1).trans (final1 m c)).trans (congrArg timeSums (head_eq m c))

/-- In the second: the constant 36. -/
theorem arr2 (c : Dev nD) :
    Pipeline.withArrays (cfgs 0).spec c (V0 m c) (fun w => (dats m 0 c).arrAt w (cfgs 0).N) (Proc.devRef .tc main_v1_1)
      = timeCounts :=
  (Pipeline.withArrays_arr spec0 launch0.win.arr_inj c _ _ 2).trans (final2 m c)

/-- In the region numbers' buffer: the second argument, untouched. -/
theorem arrCid (c : Dev nD) :
    Pipeline.withArrays (cfgs 0).spec c (V0 m c) (fun w => (dats m 0 c).arrAt w (cfgs 0).N) (Proc.devRef .tc main_arg1)
      = m ((c.tc : Thread nD τ).loc main_arg1) :=
  (Pipeline.withArrays_of_ne _ c (V0 m c) _ main_arg1 (by exact (by decide : ∀ w, Pipeline.arrRef spec0 w ≠ main_arg1))).trans
    (V_main_arg1 m c)

/-- The first result buffer after the whole program. -/
theorem out_pred (c : Dev nD) :
    Pipeline.afterTail₀ cfgs (dats m) 0 (V0 m) tailOps c main_v46 = NodeMeans.pred (m ((c.tc : Thread nD τ).loc main_arg0)) := by
  unfold Pipeline.afterTail₀
  rw [tail_pred, arr1, arr2]
  exact pred_eq _

/-- The second result buffer after the whole program. -/
theorem out_reg (c : Dev nD) :
    Pipeline.afterTail₀ cfgs (dats m) 0 (V0 m) tailOps c main_v48
      = NodeMeans.regional (m ((c.tc : Thread nD τ).loc main_arg0)) (onehot (m ((c.tc : Thread nD τ).loc main_arg1))) := by
  unfold Pipeline.afterTail₀
  rw [tail_reg, arr1, arr2, arrCid]
  exact regional_eq _ _

/-- THE RUN, READ: every weakly fair execution terminates with the two results at the specification's functions of the
    arguments and the arguments unchanged. -/
theorem run : θ_run defs (onTc (τ := τ) (main (F := Ideal))) ⟨m, fun _ => 0, ρ⟩ fun r => ∀ c : Dev nD,
      r.2.mem ((c.tc : Thread nD τ).loc main_v46) = NodeMeans.pred (m ((c.tc : Thread nD τ).loc main_arg0))
      ∧ r.2.mem ((c.tc : Thread nD τ).loc main_v48)
          = NodeMeans.regional (m ((c.tc : Thread nD τ).loc main_arg0)) (onehot (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v46 (Pipeline.mem_restRefs_of main_v46 (by decide) (by decide))).trans (out_pred m c),
      ((h c).2 main_v48 (Pipeline.mem_restRefs_of main_v48 (by decide) (by decide))).trans (out_reg m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.RefValue.lean ====
import proofs.«145007_j24790551233350_2_alg».proof.Proof.Gen.ReferenceIdeal.Read
import proofs.«145007_j24790551233350_2_alg».proof.Proof.NodeMeans
import Idealize.ShloMosaic.Lib.ValueIdxRank6
import proofs.«145007_j24790551233350_2_alg».proof.Proof.LibSelfCompare

/-
  The reference's two results are the specification's.

  The reference keeps channel 0 of the readings, masks the entries that differ from themselves (none, on the extended
  reals), sums values and mask over time, divides, repeats the quotient ten times along a new axis (through a rank-6
  intermediate), and contracts it against the one-hot membership matrix. Read at coordinates, stage by stage, the
  first result is the time mean and the second the quotient of the region's sum by the region's count.
-/

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.NodeMeans Cert.Lib.SelfCompare

variable (x0 : (⟨S32x36x10000x3, .f32⟩ : BufTy).Contents (Elt Ideal)) (x1 : (⟨S10000, .i32⟩ : BufTy).Contents (Elt Ideal))

/-- Channel 0 at (b, k, n) is the reading at (b, k, n, 0). -/
theorem v1_apply (b : Fin 32) (k : Fin 36) (n : Fin 10000) :
    val_main_v1 (F := Ideal) x0 (ix3 b k n) = x0 (ix4 b k n (0 : Fin 3)) := by
  have hb := b.isLt
  have hk := k.isLt
  have hn := n.isLt
  rw [val_main_v1_apply, val_main_v0_apply]
  refine congrArg x0 (funext fun a => Fin.ext ?_)
  match a with
  | ⟨0, _⟩ => show ((b.val * 36 + k.val) * 10000 + n.val) / 360000 = b.val; omega
  | ⟨1, _⟩ => show ((b.val * 36 + k.val) * 10000 + n.val) / 10000 % 36 = k.val; omega
  | ⟨2, _⟩ => show ((b.val * 36 + k.val) * 10000 + n.val) / 1 % 10000 = n.val; omega
  | ⟨3, _⟩ => rfl

/-- The mask is all ones, -/
theorem v3_apply (i : S32x36x10000.Idx) : val_main_v3 (F := Ideal) x0 i = 1#1 := by
  rw [val_main_v3_apply, val_main_v2_apply]
  show ~~~(Ideal.cmp .une _ _) = 1#1
  rw [cmp_une_self]; rfl

/-- so the masked values are the values, -/
theorem v4_apply (i : S32x36x10000.Idx) : val_main_v4 (F := Ideal) x0 i = val_main_v1 (F := Ideal) x0 i := by
  rw [val_main_v4_apply, v3_apply]; rfl

/-- and the count over time is the word 36. -/
theorem v6_apply (j : S32x10000.Idx) : val_main_v6 (F := Ideal) x0 j = 36#32 := by
  unfold val_main_v6
  have hones : val_main_v5 (F := Ideal) x0 = fun _ => 1#32 := by
    funext i; rw [val_main_v5_apply, v3_apply]; rfl
  rw [hones, Host.reduce_eq_fold_single IntOp.addi _ _ reducesTo_S32x36x10000_S32x10000_d1 (by decide) h_S_ j]
  show (Finset.univ : Finset (Fin 36)).fold IntOp.addi (0#32) (fun _ => 1#32) = 36#32
  rw [fold_addi_ones, Finset.card_univ, Fintype.card_fin]
  decide

/-- The time mean at (b, n). -/
theorem v9_apply (b : Fin 32) (n : Fin 10000) : val_main_v9 (F := Ideal) x0 (ix2 b n) = mean x0 b n := by
  rw [val_main_v9_apply, val_main_v8_apply, val_main_v7_apply, v6_apply]
  show Ideal.div (Ideal.ofBits .f32 0x00000000#32 + ∑ k : Fin 36, val_main_v4 (F := Ideal) x0 (idx_main_v8 (ix2 b n) k)) ((((36#32 : BitVec 32).toInt : ℝ)) : EReal) = _
  rw [Ideal.ofBits_zero_f32, zero_add]
  unfold mean
  refine congrArg₂ Ideal.div (Finset.sum_congr rfl fun k _ => ?_) ?_
  · rw [v4_apply]
    exact v1_apply x0 b k n
  · have h : (36#32 : BitVec 32).toInt = 36 := by decide
    rw [h]
    norm_cast

/-- The repetition through the rank-6 intermediate: (b, h, n) reads the time mean at (b, n). -/
theorem v13_apply (b : Fin 32) (h : Fin 10) (n : Fin 10000) :
    val_main_v13 (F := Ideal) x0 (ix3 b h n) = val_main_v9 (F := Ideal) x0 (ix2 b n) := by
  unfold val_main_v13
  refine (shapeCast_apply _ _ (ix3 b h n) (ix6 (0 : Fin 1) b h (0 : Fin 1) (0 : Fin 1) n) ?_).trans ?_
  · rw [Shape.rowMajor_val_six, Shape.rowMajor_val_three]
    show ((((0 * 32 + b.val) * 10 + h.val) * 1 + 0) * 1 + 0) * 10000 + n.val = (b.val * 10 + h.val) * 10000 + n.val
    omega
  rw [val_main_v12_apply]
  unfold val_main_v11
  refine (shapeCast_apply _ _ _ (ix3 b (0 : Fin 1) n) ?_).trans ?_
  · rw [Shape.rowMajor_val_three, Shape.rowMajor_val_six]
    show (b.val * 1 + 0) * 10000 + n.val = ((((0 * 32 + b.val) * 1 + 0) * 1 + 0) * 1 + 0) * 10000 + n.val
    omega
  rw [val_main_v10_apply]
  exact congrArg _ (funext fun a => Fin.ext (by match a with | ⟨0, _⟩ => rfl | ⟨1, _⟩ => rfl))

/-- THE FIRST RESULT is the specification's: the final select keeps the repeated time mean. -/
theorem out0_eq : val_main_v45 (F := Ideal) x0 = pred x0 := by
  funext i
  obtain ⟨b, h, n, rfl⟩ : ∃ (b : Fin 32) (h : Fin 10) (n : Fin 10000), i = ix3 b h n := ⟨i 0, i 1, i 2, eq_ix3 i⟩
  rw [val_main_v45_apply, val_main_v44_apply]
  show Scalar.select (Ideal.cmp .une _ _) _ _ = _
  rw [cmp_une_self]
  show val_main_v13 (F := Ideal) x0 (ix3 b h n) = mean x0 b n
  rw [v13_apply, v9_apply]

/-- The masked repeated mean is the repeated mean, -/
theorem v23_apply (i : S32x10x10000.Idx) : val_main_v23 (F := Ideal) x0 i = val_main_v13 (F := Ideal) x0 i := by
  rw [val_main_v23_apply, val_main_v22_apply, val_main_v21_apply]
  show Scalar.select (~~~(Ideal.cmp .une _ _)) _ _ = _
  rw [cmp_une_self]; rfl

/-- and its mask read as a number is one. -/
theorem v25_apply (i : S32x10x10000.Idx) : val_main_v25 (F := Ideal) x0 i = 1 := by
  rw [val_main_v25_apply, val_main_v22_apply, val_main_v21_apply]
  show ((((~~~(Ideal.cmp .une _ _)).toNat : ℝ)) : EReal) = 1
  rw [cmp_une_self]
  simp

/-- The regional quotient at (b, h, r). -/
theorem v27_apply (b : Fin 32) (h : Fin 10) (r : Fin 20) :
    val_main_v27 (F := Ideal) x0 x1 (ix3 b h r)
      = Ideal.div (∑ n : Fin 10000, mean x0 b n * val_main_v20 (F := Ideal) x1 (ix2 n r))
          (∑ n : Fin 10000, val_main_v20 (F := Ideal) x1 (ix2 n r)) := by
  rw [val_main_v27_apply, val_main_v24_apply, val_main_v26_apply]
  show Ideal.div _ _ = _
  refine congrArg₂ Ideal.div (Finset.sum_congr rfl fun k _ => ?_) (Finset.sum_congr rfl fun k _ => ?_)
  · have el : lidx_main_v24 (ix3 b h r) k = ix3 b h k :=
      funext fun a => Fin.ext (by match a with | ⟨0, _⟩ => rfl | ⟨1, _⟩ => rfl | ⟨2, _⟩ => rfl)
    have er : ridx_main_v24 (ix3 b h r) k = ix2 k r :=
      funext fun a => Fin.ext (by match a with | ⟨0, _⟩ => rfl | ⟨1, _⟩ => rfl)
    rw [el, er, v23_apply, v13_apply, v9_apply]
  · have el : lidx_main_v26 (ix3 b h r) k = ix3 b h k :=
      funext fun a => Fin.ext (by match a with | ⟨0, _⟩ => rfl | ⟨1, _⟩ => rfl | ⟨2, _⟩ => rfl)
    have er : ridx_main_v26 (ix3 b h r) k = ix2 k r :=
      funext fun a => Fin.ext (by match a with | ⟨0, _⟩ => rfl | ⟨1, _⟩ => rfl)
    rw [el, er, v25_apply, one_mul]

/-- THE SECOND RESULT is the specification's, with the reference's own one-hot matrix as the membership matrix. -/
theorem out1_eq : val_main_v47 (F := Ideal) x0 x1 = regional x0 (val_main_v20 (F := Ideal) x1) := by
  funext i
  obtain ⟨b, h, r, rfl⟩ : ∃ (b : Fin 32) (h : Fin 10) (r : Fin 20), i = ix3 b h r := ⟨i 0, i 1, i 2, eq_ix3 i⟩
  rw [val_main_v47_apply, val_main_v46_apply]
  show Scalar.select (Ideal.cmp .une _ _) _ _ = _
  rw [cmp_une_self]
  show val_main_v27 (F := Ideal) x0 x1 (ix3 b h r) = _
  rw [v27_apply]
  rfl

end Cert.ReferenceIdeal.RefValue

end
-- ==== Proof.lean ====
/- The proof of `Cert.Claim` — the three frames, `preserves` and `algebraic`.

   The kernel sums, over the 36 time steps, every (node, channel) column of the readings and the "is not NaN" mask of
   it, in eight blocks of four batches; the host code around it keeps channel 0, divides the sums by the counts into
   the time mean, repeats it over ten horizon steps, and contracts it against the one-hot matrix of the nodes' region
   numbers for the regional mean. The reference keeps channel 0 first and does the same on the host, forming the
   regional quotient on the repeated array. Both then replace the entries that differ from themselves by a global mean.
   On the extended reals no entry differs from itself: every mask is all ones, every count over time is 36, and the
   final selects return the arrays themselves, so the global means never enter. Each program's two results are
   therefore the same two functions of the arguments (Proof/NodeMeans.lean):
     first  (b, h, n) ↦ (Σ_t A(b, t, n, 0)) / 36,
     second (b, h, r) ↦ (Σ_n mean(b, n) · oh(n, r)) / (Σ_n oh(n, r)),  oh the one-hot matrix of the region numbers,
   with no finiteness needed: the same sums of the same terms, in the same division, on both sides.
   The ideal pass rewrote nothing, so `preserves` is `True`. -/
import proofs.«145007_j24790551233350_2_alg».proof.Defs
import proofs.«145007_j24790551233350_2_alg».proof.Proof.Gen.Kernel
import proofs.«145007_j24790551233350_2_alg».proof.Proof.Gen.Kernel.Skeleton
import proofs.«145007_j24790551233350_2_alg».proof.Proof.Gen.Kernel.Launch
import proofs.«145007_j24790551233350_2_alg».proof.Proof.Gen.Kernel.Points
import proofs.«145007_j24790551233350_2_alg».proof.Proof.Gen.Kernel.Frame
import proofs.«145007_j24790551233350_2_alg».proof.Proof.Gen.KernelIdeal
import proofs.«145007_j24790551233350_2_alg».proof.Proof.Gen.KernelIdeal.Skeleton
import proofs.«145007_j24790551233350_2_alg».proof.Proof.Gen.KernelIdeal.Launch
import proofs.«145007_j24790551233350_2_alg».proof.Proof.Gen.KernelIdeal.Points
import proofs.«145007_j24790551233350_2_alg».proof.Proof.Gen.KernelIdeal.Frame
import proofs.«145007_j24790551233350_2_alg».proof.Proof.Gen.ReferenceIdeal
import proofs.«145007_j24790551233350_2_alg».proof.Proof.Gen.Pre_finite_inputs
import proofs.«145007_j24790551233350_2_alg».proof.Proof.Gen.ReferenceIdeal.Run
import proofs.«145007_j24790551233350_2_alg».proof.Proof.Gen.ReferenceIdeal.Read
import proofs.«145007_j24790551233350_2_alg».proof.Proof.KernelResult
import proofs.«145007_j24790551233350_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two programs build the one-hot matrix of the region numbers by the same operations. -/
theorem onehot_eq (cid : IVec Cert.KernelIdeal.S10000 32) :
    Cert.KernelIdeal.Tail.onehot cid = Cert.ReferenceIdeal.Read.val_main_v20 (F := Ideal) cid := rfl

/-- Both runs end with their results at the specification's two functions of arguments that agree. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v45_eq, Cert.ReferenceIdeal.RefValue.out0_eq, (hagree c).1]
  · rw [Cert.ReferenceIdeal.Read.val_main_v47_eq, Cert.ReferenceIdeal.RefValue.out1_eq, (hagree c).1, (hagree c).2, onehot_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
